-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S1024x4096 : Shape := ⟨2, ![1024, 4096]⟩
abbrev S256x4096 : Shape := ⟨2, ![256, 4096]⟩

abbrev nBuf : Space → Nat
  | .hbm => 17
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S2048x4096, .f32⟩
  | .hbm, ⟨12, _⟩ => ⟨S2048x4096, .bf16⟩
  | .hbm, ⟨13, _⟩ => ⟨S4096, .f32⟩
  | .hbm, ⟨14, _⟩ => ⟨S1x4096, .f32⟩
  | .hbm, ⟨15, _⟩ => ⟨S8192x1024, .f32⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S2048x4096_S1024x4096_0_0 : ∀ a, (![0, 0] : Fin 2 → Nat) a + S1024x4096.size a ≤ S2048x4096.size a
  h_S1024x4096 : 0 < S1024x4096.numel
  shapeCasts_S1024x4096_S1024x4096 : S1024x4096.ShapeCasts S1024x4096
  inb_S2048x4096_S1024x4096_1024_0 : ∀ a, (![1024, 0] : Fin 2 → Nat) a + S1024x4096.size a ≤ S2048x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S1x1024 : Shape := ⟨2, ![1, 1024]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S8192x2048, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x2048_S2048x1024_S8192x1024_1_0_0_1_n_n_wf : DotDims.WF S8192x2048 S2048x1024 S8192x1024 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.BitsEntry.lean ====
/-
  The LSTM-cell program up to its one region, and what its run leaves of the argument arrays.

  Before the region four host operations run on each core: the four gate weight matrices (each [2048, 1024]) are laid
  side by side along the columns into one [2048, 4096] matrix, which is rounded to bf16; the four gate biases (each
  [1024]) are laid end to end into one [4096] vector, which is viewed as a [1, 4096] row. Each writes a fresh
  intermediate buffer and none writes an argument array, so the region finds all eleven arguments as launched
  (`entry_argK`). The region stages seven windows: the row tiles of x, out_tm1 and state_tm1 (arguments 0, 1, 2; 256
  rows per grid point, 32 points), the whole fused weight matrix and the whole bias row (fetched once), and the row
  tiles of the two results. Of the arguments only the first three are windowed arrays; a run that ends in the
  library's frame post therefore leaves those three at the library's computed contents, which for an input window are
  its entry contents, and the other eight among the buffers the region never touches.
-/
import proofs.«122653_j25829933318237_2_alg».proof.Proof.Gen.Kernel.Launch
import proofs.«122653_j25829933318237_2_alg».proof.Proof.Gen.Kernel.Skeleton
import proofs.«122653_j25829933318237_2_alg».proof.Proof.Gen.Kernel.Points
import Idealize.ShloMosaic.Lib.Pipeline.FrameBody
import Idealize.ShloMosaic.Lib.Ring
import Idealize.ShloMosaic.Lib.Tactic

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The buffers as the region finds them -/

/-- Core `c`'s TensorCore buffers when the region is entered: the launch contents after the four host operations
    (the fused weight matrix, its bf16 rounding, the fused bias vector, its row view). -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its four host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the four intermediates is found as launched: the host operations write only their own
    results `main_v0 … main_v3`. -/
theorem entry_of_ne (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes, Finset.mem_singleton]
    exact ⟨StableHlo.devRef_ne_of_ne h0, StableHlo.devRef_ne_of_ne h1, StableHlo.devRef_ne_of_ne h2, StableHlo.devRef_ne_of_ne h3⟩))

theorem entry_arg0 (c : Dev nD) : V m c main_arg0 = m ((c : Thread nD τ).loc main_arg0) := entry_of_ne m c _ (by decide) (by decide) (by decide) (by decide)
theorem entry_arg1 (c : Dev nD) : V m c main_arg1 = m ((c : Thread nD τ).loc main_arg1) := entry_of_ne m c _ (by decide) (by decide) (by decide) (by decide)
theorem entry_arg2 (c : Dev nD) : V m c main_arg2 = m ((c : Thread nD τ).loc main_arg2) := entry_of_ne m c _ (by decide) (by decide) (by decide) (by decide)
theorem entry_arg3 (c : Dev nD) : V m c main_arg3 = m ((c : Thread nD τ).loc main_arg3) := entry_of_ne m c _ (by decide) (by decide) (by decide) (by decide)
theorem entry_arg4 (c : Dev nD) : V m c main_arg4 = m ((c : Thread nD τ).loc main_arg4) := entry_of_ne m c _ (by decide) (by decide) (by decide) (by decide)
theorem entry_arg5 (c : Dev nD) : V m c main_arg5 = m ((c : Thread nD τ).loc main_arg5) := entry_of_ne m c _ (by decide) (by decide) (by decide) (by decide)
theorem entry_arg6 (c : Dev nD) : V m c main_arg6 = m ((c : Thread nD τ).loc main_arg6) := entry_of_ne m c _ (by decide) (by decide) (by decide) (by decide)
theorem entry_arg7 (c : Dev nD) : V m c main_arg7 = m ((c : Thread nD τ).loc main_arg7) := entry_of_ne m c _ (by decide) (by decide) (by decide) (by decide)
theorem entry_arg8 (c : Dev nD) : V m c main_arg8 = m ((c : Thread nD τ).loc main_arg8) := entry_of_ne m c _ (by decide) (by decide) (by decide) (by decide)
theorem entry_arg9 (c : Dev nD) : V m c main_arg9 = m ((c : Thread nD τ).loc main_arg9) := entry_of_ne m c _ (by decide) (by decide) (by decide) (by decide)
theorem entry_arg10 (c : Dev nD) : V m c main_arg10 = m ((c : Thread nD τ).loc main_arg10) := entry_of_ne m c _ (by decide) (by decide) (by decide) (by decide)

/-! ## A window's block at a grid point -/

/-- Window `w`'s block at point `t`: the part of its array, as the region finds it, that the point's index map selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window whose body leaves its staging buffer as found holds, at every point, its block there — whether the
    pipeline fetched it at that point (the three row tiles: every point) or only at the first (the weight matrix and
    the bias row, whose block index never moves). One lemma per input window, for any proof data over the entry
    contents whose `after` for the window is its block. -/

/-- Window 0 (the row tile of x) is found at its block. -/
theorem found0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 (the row tile of out_tm1) is found at its block. -/
theorem found1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 (the row tile of state_tm1) is found at its block. -/
theorem found2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 (the fused bf16 weight matrix, whole) is found at its block. -/
theorem found3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 (the fused bias row, whole) is found at its block. -/
theorem found4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame post read at the arguments -/

/-- From a run that ends in the library's frame post — every windowed array at what the library computes from the
    proof data, every other unscoped buffer as the region found it — to the eleven arguments unchanged: arguments 0, 1, 2
    are the arrays of input windows, which the library computes to be their entry contents; the other eight are
    buffers the region never stages; and the region found each as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (entry_arg0 m c))),
   ((h c).1 1).trans (((dats 0 c).arrAt_in 1 rfl _).trans ((hA c 1).trans (entry_arg1 m c))),
   ((h c).1 2).trans (((dats 0 c).arrAt_in 2 rfl _).trans ((hA c 2).trans (entry_arg2 m c))),
   ((h c).2 main_arg3 (Pipeline.mem_restRefs_of main_arg3 (by decide) (by decide))).trans (entry_arg3 m c),
   ((h c).2 main_arg4 (Pipeline.mem_restRefs_of main_arg4 (by decide) (by decide))).trans (entry_arg4 m c),
   ((h c).2 main_arg5 (Pipeline.mem_restRefs_of main_arg5 (by decide) (by decide))).trans (entry_arg5 m c),
   ((h c).2 main_arg6 (Pipeline.mem_restRefs_of main_arg6 (by decide) (by decide))).trans (entry_arg6 m c),
   ((h c).2 main_arg7 (Pipeline.mem_restRefs_of main_arg7 (by decide) (by decide))).trans (entry_arg7 m c),
   ((h c).2 main_arg8 (Pipeline.mem_restRefs_of main_arg8 (by decide) (by decide))).trans (entry_arg8 m c),
   ((h c).2 main_arg9 (Pipeline.mem_restRefs_of main_arg9 (by decide) (by decide))).trans (entry_arg9 m c),
   ((h c).2 main_arg10 (Pipeline.mem_restRefs_of main_arg10 (by decide) (by decide))).trans (entry_arg10 m c)⟩

end Cert.Kernel.Cell

end
-- ==== Proof.BitsBody.lean ====
/-
  One grid point of the LSTM cell: what the kernel body leaves in its two output tiles.

  The body reads three [256, 1024] row tiles (x, out_tm1, state_tm1), the upper and the lower [1024, 4096] half of the
  fused weight matrix, and the [1, 4096] bias row; it forms the [256, 4096] gate pre-activations
  x · W_top + out_tm1 · W_bot + bias, cuts them into four [256, 1024] column bands (forget, input, candidate, output),
  and stores   new_state = state_tm1 · σ(f) + σ(i) · tanh(c)   into the second output tile and
  σ(o) · tanh(new_state)   into the first. Each store covers its whole tile, so what a tile holds afterwards is a
  function of the six loaded values alone (`stateTile`, `outTile`), whatever it held before — the body also loads each
  output tile once before overwriting it and uses nothing of what it read.
-/
import proofs.«122653_j25829933318237_2_alg».proof.Proof.BitsEntry

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes through -/

/-- A whole [256, 1024] tile. -/
abbrev tile : Rect S256x1024 := Rect.unit (s := S256x1024) ![0, 0] S256x1024.size inb_S256x1024_S256x1024_0_0
/-- Rows 0 … 1023 of the fused weight matrix: the rows that multiply x. -/
abbrev wTop : Rect S2048x4096 := Rect.unit (s := S2048x4096) ![0, 0] S1024x4096.size inb_S2048x4096_S1024x4096_0_0
/-- Rows 1024 … 2047 of the fused weight matrix: the rows that multiply out_tm1. -/
abbrev wBot : Rect S2048x4096 := Rect.unit (s := S2048x4096) ![1024, 0] S1024x4096.size inb_S2048x4096_S1024x4096_1024_0
/-- The whole bias row. -/
abbrev biasRow : Rect S1x4096 := Rect.unit (s := S1x4096) ![0, 0] S1x4096.size inb_S1x4096_S1x4096_0_0

/-! ## What the two output tiles hold after the body -/

/-- The new-state tile after the body, from the contents of the five input buffers. -/
def stateTile (x h s : Vec F S256x1024 .f32) (w : Vec F S2048x4096 .bf16) (b : Vec F S1x4096 .f32) : Vec F S256x1024 .f32 :=
  View.canon [⟨tile, k0_pay2 (View.ld x tile) (View.ld h tile) (View.ld w wTop) (View.ld w wBot) (View.ld b biasRow) (View.ld s tile)⟩]

/-- The output tile after the body, from the contents of the five input buffers. -/
def outTile (x h s : Vec F S256x1024 .f32) (w : Vec F S2048x4096 .bf16) (b : Vec F S1x4096 .f32) : Vec F S256x1024 .f32 :=
  View.canon [⟨tile, k0_pay3 (View.ld x tile) (View.ld h tile) (View.ld w wTop) (View.ld w wBot) (View.ld b biasRow) (View.ld s tile)⟩]

/-- One store through the whole-tile rectangle covers the tile. -/
theorem tile_covers (p : Vec F S256x1024 .f32) (y : S256x1024.Idx) :
    ∃ pc ∈ ([⟨tile, p⟩] : List (View.Piece (Elt F) S256x1024 .f32)), y ∈ pc.1.set :=
  View.cover_of_tiled [⟨tile, p⟩] S256x1024.size (by rfl) y

/-! ## The body's triple -/

set_option maxHeartbeats 1000000 in
/-- The kernel body on whole staging buffers — the five inputs' at contents reading `x`, `h`, `s`, `w`, `b`, the two
    outputs' at anything — runs without fault to a state where the inputs' buffers are as they were and the outputs'
    hold `outTile` and `stateTile` of the inputs. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h s : Vec F S256x1024 .f32) (w : Vec F S2048x4096 .bf16) (b : Vec F S1x4096 .f32) (K : PUnit → sProp 𝕄) :
    iprop(owns (c : Thread nD τ) arg1 fullShare x ∗ owns (c : Thread nD τ) arg2 fullShare h ∗ owns (c : Thread nD τ) arg3 fullShare s
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare s
            ∗ owns (c : Thread nD τ) arg4 fullShare w ∗ owns (c : Thread nD τ) arg5 fullShare b
            ∗ owns (c : Thread nD τ) arg6 fullShare (outTile x h s w b) ∗ owns (c : Thread nD τ) arg7 fullShare (stateTile x h s w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_covers _)
  iexists _; isplitr
  swap; · iexact H7
  ipureintro
  exact View.read_writes_eq_canon _ _ _ (tile_covers _)

end Cert.Kernel.Cell

end
-- ==== Proof.BitsRun.lean ====
/-
  The run of the LSTM-cell program: the pipeline's proof data, the body obligation at every grid point, and from them
  the whole run and the frame.

  The proof data says, for each of the 32 grid points, what each window's staging buffer holds after the body: an
  input window's buffer still its block of the array (the body stores into no input), the two output windows'
  buffers `outTile` and `stateTile` of the five input blocks at that point. The body keeps nothing between points and
  signals no one, so the invariant is the class's (the scoped rest and the generator register, untouched), nothing is
  owed and every share is full. The library's launch theorem then gives: every weakly fair execution terminates without
  fault, each windowed array ends at what the library computes from this data, and every other unscoped buffer as the
  region found it.
-/
import proofs.«122653_j25829933318237_2_alg».proof.Proof.BitsBody

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`: the arrays as the region finds them; after the body at point `t` each
    input window's buffer at its block and the output windows' at `outTile` / `stateTile` of the five input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile (iblk m c 0 t) (iblk m c 1 t) (iblk m c 2 t) (iblk m c 3 t) (iblk m c 4 t)
    | ⟨6, _⟩ => stateTile (iblk m c 0 t) (iblk m c 1 t) (iblk m c 2 t) (iblk m c 3 t) (iblk m c 4 t)
  Φ _ := Pipeline.ΦA spec0 c
  q _ := fullShare
  owed _ := 0

/-- The data's arrays are the entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outTile (iblk m c 0 t) (iblk m c 1 t) (iblk m c 2 t) (iblk m c 3 t) (iblk m c 4 t) := by dsimp only [dats]
theorem after_6 (c : Dev nD) (t : Fin cfg0.N) :
    (dats m 0 c).after 6 t = stateTile (iblk m c 0 t) (iblk m c 1 t) (iblk m c 2 t) (iblk m c 3 t) (iblk m c 4 t) := by dsimp only [dats]

/-- Each input window's current staging buffer holds its block at every point. -/
theorem before_0 (c : Dev nD) (t : Fin cfg0.N) (d) : (dats m 0 c).before 0 t d = iblk m c 0 t := found0 m (dats m 0 c) (A_eq m c 0) (after_0 m c) t d
theorem before_1 (c : Dev nD) (t : Fin cfg0.N) (d) : (dats m 0 c).before 1 t d = iblk m c 1 t := found1 m (dats m 0 c) (A_eq m c 1) (after_1 m c) t d
theorem before_2 (c : Dev nD) (t : Fin cfg0.N) (d) : (dats m 0 c).before 2 t d = iblk m c 2 t := found2 m (dats m 0 c) (A_eq m c 2) (after_2 m c) t d
theorem before_3 (c : Dev nD) (t : Fin cfg0.N) (d) : (dats m 0 c).before 3 t d = iblk m c 3 t := found3 m (dats m 0 c) (A_eq m c 3) (after_3 m c) t d
theorem before_4 (c : Dev nD) (t : Fin cfg0.N) (d) : (dats m 0 c).before 4 t d = iblk m c 4 t := found4 m (dats m 0 c) (A_eq m c 4) (after_4 m c) t d

/-! ## The body obligation at a grid point -/

/-- What the body is called with at point `t`: the invariant, the core's dues, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values and any launch memory with zero counters: every weakly fair execution of the program terminates
    without fault, every windowed array ends at what the library computes from the proof data, and every other unscoped
    buffer ends as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without fault and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m (dats m) (A_eq m) r h c) (run_main m ρ)

end Cert.Kernel.Cell

end
-- ==== Proof.IdealEntry.lean ====
/-
  The LSTM-cell program up to its one region, and what its run leaves of the argument arrays.

  Before the region four host operations run on each core: the four gate weight matrices (each [2048, 1024]) are laid
  side by side along the columns into one [2048, 4096] matrix, which is rounded to bf16; the four gate biases (each
  [1024]) are laid end to end into one [4096] vector, which is viewed as a [1, 4096] row. Each writes a fresh
  intermediate buffer and none writes an argument array, so the region finds all eleven arguments as launched
  (`entry_argK`). The region stages seven windows: the row tiles of x, out_tm1 and state_tm1 (arguments 0, 1, 2; 256
  rows per grid point, 32 points), the whole fused weight matrix and the whole bias row (fetched once), and the row
  tiles of the two results. Of the arguments only the first three are windowed arrays; a run that ends in the
  library's frame post therefore leaves those three at the library's computed contents, which for an input window are
  its entry contents, and the other eight among the buffers the region never touches.
-/
import proofs.«122653_j25829933318237_2_alg».proof.Proof.Gen.KernelIdeal.Launch
import proofs.«122653_j25829933318237_2_alg».proof.Proof.Gen.KernelIdeal.Skeleton
import proofs.«122653_j25829933318237_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The buffers as the region finds them -/

/-- Core `c`'s TensorCore buffers when the region is entered: the launch contents after the four host operations
    (the fused weight matrix, its bf16 rounding, the fused bias vector, its row view). -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its four host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the four intermediates is found as launched: the host operations write only their own
    results `main_v0 … main_v3`. -/
theorem entry_of_ne (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, StableHlo.nary_writes, StableHlo.reshape_writes, Finset.mem_singleton]
    exact ⟨StableHlo.devRef_ne_of_ne h0, StableHlo.devRef_ne_of_ne h1, StableHlo.devRef_ne_of_ne h2, StableHlo.devRef_ne_of_ne h3⟩))

theorem entry_arg0 (c : Dev nD) : V m c main_arg0 = m ((c : Thread nD τ).loc main_arg0) := entry_of_ne m c _ (by decide) (by decide) (by decide) (by decide)
theorem entry_arg1 (c : Dev nD) : V m c main_arg1 = m ((c : Thread nD τ).loc main_arg1) := entry_of_ne m c _ (by decide) (by decide) (by decide) (by decide)
theorem entry_arg2 (c : Dev nD) : V m c main_arg2 = m ((c : Thread nD τ).loc main_arg2) := entry_of_ne m c _ (by decide) (by decide) (by decide) (by decide)
theorem entry_arg3 (c : Dev nD) : V m c main_arg3 = m ((c : Thread nD τ).loc main_arg3) := entry_of_ne m c _ (by decide) (by decide) (by decide) (by decide)
theorem entry_arg4 (c : Dev nD) : V m c main_arg4 = m ((c : Thread nD τ).loc main_arg4) := entry_of_ne m c _ (by decide) (by decide) (by decide) (by decide)
theorem entry_arg5 (c : Dev nD) : V m c main_arg5 = m ((c : Thread nD τ).loc main_arg5) := entry_of_ne m c _ (by decide) (by decide) (by decide) (by decide)
theorem entry_arg6 (c : Dev nD) : V m c main_arg6 = m ((c : Thread nD τ).loc main_arg6) := entry_of_ne m c _ (by decide) (by decide) (by decide) (by decide)
theorem entry_arg7 (c : Dev nD) : V m c main_arg7 = m ((c : Thread nD τ).loc main_arg7) := entry_of_ne m c _ (by decide) (by decide) (by decide) (by decide)
theorem entry_arg8 (c : Dev nD) : V m c main_arg8 = m ((c : Thread nD τ).loc main_arg8) := entry_of_ne m c _ (by decide) (by decide) (by decide) (by decide)
theorem entry_arg9 (c : Dev nD) : V m c main_arg9 = m ((c : Thread nD τ).loc main_arg9) := entry_of_ne m c _ (by decide) (by decide) (by decide) (by decide)
theorem entry_arg10 (c : Dev nD) : V m c main_arg10 = m ((c : Thread nD τ).loc main_arg10) := entry_of_ne m c _ (by decide) (by decide) (by decide) (by decide)

/-! ## A window's block at a grid point -/

/-- Window `w`'s block at point `t`: the part of its array, as the region finds it, that the point's index map selects. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window whose body leaves its staging buffer as found holds, at every point, its block there — whether the
    pipeline fetched it at that point (the three row tiles: every point) or only at the first (the weight matrix and
    the bias row, whose block index never moves). One lemma per input window, for any proof data over the entry
    contents whose `after` for the window is its block. -/

/-- Window 0 (the row tile of x) is found at its block. -/
theorem found0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 (the row tile of out_tm1) is found at its block. -/
theorem found1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 (the row tile of state_tm1) is found at its block. -/
theorem found2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 (the fused bf16 weight matrix, whole) is found at its block. -/
theorem found3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 (the fused bias row, whole) is found at its block. -/
theorem found4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame post read at the arguments -/

/-- From a run that ends in the library's frame post — every windowed array at what the library computes from the
    proof data, every other unscoped buffer as the region found it — to the eleven arguments unchanged: arguments 0, 1, 2
    are the arrays of input windows, which the library computes to be their entry contents; the other eight are
    buffers the region never stages; and the region found each as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 0).trans (((dats 0 c).arrAt_in 0 rfl _).trans ((hA c 0).trans (entry_arg0 m c))),
   ((h c).1 1).trans (((dats 0 c).arrAt_in 1 rfl _).trans ((hA c 1).trans (entry_arg1 m c))),
   ((h c).1 2).trans (((dats 0 c).arrAt_in 2 rfl _).trans ((hA c 2).trans (entry_arg2 m c))),
   ((h c).2 main_arg3 (Pipeline.mem_restRefs_of main_arg3 (by decide) (by decide))).trans (entry_arg3 m c),
   ((h c).2 main_arg4 (Pipeline.mem_restRefs_of main_arg4 (by decide) (by decide))).trans (entry_arg4 m c),
   ((h c).2 main_arg5 (Pipeline.mem_restRefs_of main_arg5 (by decide) (by decide))).trans (entry_arg5 m c),
   ((h c).2 main_arg6 (Pipeline.mem_restRefs_of main_arg6 (by decide) (by decide))).trans (entry_arg6 m c),
   ((h c).2 main_arg7 (Pipeline.mem_restRefs_of main_arg7 (by decide) (by decide))).trans (entry_arg7 m c),
   ((h c).2 main_arg8 (Pipeline.mem_restRefs_of main_arg8 (by decide) (by decide))).trans (entry_arg8 m c),
   ((h c).2 main_arg9 (Pipeline.mem_restRefs_of main_arg9 (by decide) (by decide))).trans (entry_arg9 m c),
   ((h c).2 main_arg10 (Pipeline.mem_restRefs_of main_arg10 (by decide) (by decide))).trans (entry_arg10 m c)⟩

end Cert.KernelIdeal.Cell

end
-- ==== Proof.IdealBody.lean ====
/-
  One grid point of the LSTM cell: what the kernel body leaves in its two output tiles.

  The body reads three [256, 1024] row tiles (x, out_tm1, state_tm1), the upper and the lower [1024, 4096] half of the
  fused weight matrix, and the [1, 4096] bias row; it forms the [256, 4096] gate pre-activations
  x · W_top + out_tm1 · W_bot + bias, cuts them into four [256, 1024] column bands (forget, input, candidate, output),
  and stores   new_state = state_tm1 · σ(f) + σ(i) · tanh(c)   into the second output tile and
  σ(o) · tanh(new_state)   into the first. Each store covers its whole tile, so what a tile holds afterwards is a
  function of the six loaded values alone (`stateTile`, `outTile`), whatever it held before — the body also loads each
  output tile once before overwriting it and uses nothing of what it read.
-/
import proofs.«122653_j25829933318237_2_alg».proof.Proof.IdealEntry

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes through -/

/-- A whole [256, 1024] tile. -/
abbrev tile : Rect S256x1024 := Rect.unit (s := S256x1024) ![0, 0] S256x1024.size inb_S256x1024_S256x1024_0_0
/-- Rows 0 … 1023 of the fused weight matrix: the rows that multiply x. -/
abbrev wTop : Rect S2048x4096 := Rect.unit (s := S2048x4096) ![0, 0] S1024x4096.size inb_S2048x4096_S1024x4096_0_0
/-- Rows 1024 … 2047 of the fused weight matrix: the rows that multiply out_tm1. -/
abbrev wBot : Rect S2048x4096 := Rect.unit (s := S2048x4096) ![1024, 0] S1024x4096.size inb_S2048x4096_S1024x4096_1024_0
/-- The whole bias row. -/
abbrev biasRow : Rect S1x4096 := Rect.unit (s := S1x4096) ![0, 0] S1x4096.size inb_S1x4096_S1x4096_0_0

/-! ## What the two output tiles hold after the body -/

/-- The new-state tile after the body, from the contents of the five input buffers. -/
def stateTile (x h s : Vec F S256x1024 .f32) (w : Vec F S2048x4096 .bf16) (b : Vec F S1x4096 .f32) : Vec F S256x1024 .f32 :=
  View.canon [⟨tile, k0_pay2 (View.ld x tile) (View.ld h tile) (View.ld w wTop) (View.ld w wBot) (View.ld b biasRow) (View.ld s tile)⟩]

/-- The output tile after the body, from the contents of the five input buffers. -/
def outTile (x h s : Vec F S256x1024 .f32) (w : Vec F S2048x4096 .bf16) (b : Vec F S1x4096 .f32) : Vec F S256x1024 .f32 :=
  View.canon [⟨tile, k0_pay3 (View.ld x tile) (View.ld h tile) (View.ld w wTop) (View.ld w wBot) (View.ld b biasRow) (View.ld s tile)⟩]

/-- One store through the whole-tile rectangle covers the tile. -/
theorem tile_covers (p : Vec F S256x1024 .f32) (y : S256x1024.Idx) :
    ∃ pc ∈ ([⟨tile, p⟩] : List (View.Piece (Elt F) S256x1024 .f32)), y ∈ pc.1.set :=
  View.cover_of_tiled [⟨tile, p⟩] S256x1024.size (by rfl) y

/-! ## The body's triple -/

set_option maxHeartbeats 1000000 in
/-- The kernel body on whole staging buffers — the five inputs' at contents reading `x`, `h`, `s`, `w`, `b`, the two
    outputs' at anything — runs without fault to a state where the inputs' buffers are as they were and the outputs'
    hold `outTile` and `stateTile` of the inputs. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h s : Vec F S256x1024 .f32) (w : Vec F S2048x4096 .bf16) (b : Vec F S1x4096 .f32) (K : PUnit → sProp 𝕄) :
    iprop(owns (c : Thread nD τ) arg1 fullShare x ∗ owns (c : Thread nD τ) arg2 fullShare h ∗ owns (c : Thread nD τ) arg3 fullShare s
        ∗ owns (c : Thread nD τ) arg4 fullShare w ∗ owns (c : Thread nD τ) arg5 fullShare b
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare s
            ∗ owns (c : Thread nD τ) arg4 fullShare w ∗ owns (c : Thread nD τ) arg5 fullShare b
            ∗ owns (c : Thread nD τ) arg6 fullShare (outTile x h s w b) ∗ owns (c : Thread nD τ) arg7 fullShare (stateTile x h s w b)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_covers _)
  iexists _; isplitr
  swap; · iexact H7
  ipureintro
  exact View.read_writes_eq_canon _ _ _ (tile_covers _)

end Cert.KernelIdeal.Cell

end
-- ==== Proof.IdealRun.lean ====
/-
  The run of the LSTM-cell program: the pipeline's proof data, the body obligation at every grid point, and from them
  the whole run and the frame.

  The proof data says, for each of the 32 grid points, what each window's staging buffer holds after the body: an
  input window's buffer still its block of the array (the body stores into no input), the two output windows'
  buffers `outTile` and `stateTile` of the five input blocks at that point. The body keeps nothing between points and
  signals no one, so the invariant is the class's (the scoped rest and the generator register, untouched), nothing is
  owed and every share is full. The library's launch theorem then gives: every weakly fair execution terminates without
  fault, each windowed array ends at what the library computes from this data, and every other unscoped buffer as the
  region found it.
-/
import proofs.«122653_j25829933318237_2_alg».proof.Proof.IdealBody

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The proof data of the pipeline on core `c`: the arrays as the region finds them; after the body at point `t` each
    input window's buffer at its block and the output windows' at `outTile` / `stateTile` of the five input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outTile (iblk m c 0 t) (iblk m c 1 t) (iblk m c 2 t) (iblk m c 3 t) (iblk m c 4 t)
    | ⟨6, _⟩ => stateTile (iblk m c 0 t) (iblk m c 1 t) (iblk m c 2 t) (iblk m c 3 t) (iblk m c 4 t)
  Φ _ := Pipeline.ΦA spec0 c
  q _ := fullShare
  owed _ := 0

/-- The data's arrays are the entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outTile (iblk m c 0 t) (iblk m c 1 t) (iblk m c 2 t) (iblk m c 3 t) (iblk m c 4 t) := by dsimp only [dats]
theorem after_6 (c : Dev nD) (t : Fin cfg0.N) :
    (dats m 0 c).after 6 t = stateTile (iblk m c 0 t) (iblk m c 1 t) (iblk m c 2 t) (iblk m c 3 t) (iblk m c 4 t) := by dsimp only [dats]

/-- Each input window's current staging buffer holds its block at every point. -/
theorem before_0 (c : Dev nD) (t : Fin cfg0.N) (d) : (dats m 0 c).before 0 t d = iblk m c 0 t := found0 m (dats m 0 c) (A_eq m c 0) (after_0 m c) t d
theorem before_1 (c : Dev nD) (t : Fin cfg0.N) (d) : (dats m 0 c).before 1 t d = iblk m c 1 t := found1 m (dats m 0 c) (A_eq m c 1) (after_1 m c) t d
theorem before_2 (c : Dev nD) (t : Fin cfg0.N) (d) : (dats m 0 c).before 2 t d = iblk m c 2 t := found2 m (dats m 0 c) (A_eq m c 2) (after_2 m c) t d
theorem before_3 (c : Dev nD) (t : Fin cfg0.N) (d) : (dats m 0 c).before 3 t d = iblk m c 3 t := found3 m (dats m 0 c) (A_eq m c 3) (after_3 m c) t d
theorem before_4 (c : Dev nD) (t : Fin cfg0.N) (d) : (dats m 0 c).before 4 t d = iblk m c 4 t := found4 m (dats m 0 c) (A_eq m c 4) (after_4 m c) t d

/-! ## The body obligation at a grid point -/

/-- What the body is called with at point `t`: the invariant, the core's dues, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any values and any launch memory with zero counters: every weakly fair execution of the program terminates
    without fault, every windowed array ends at what the library computes from the proof data, and every other unscoped
    buffer ends as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end without fault and leaves its eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_kept m (dats m) (A_eq m) r h c) (run_main m ρ)

end Cert.KernelIdeal.Cell

end
-- ==== Proof.Spec.lean ====
/-
  The LSTM cell as one function of its eleven arguments, index by index, on the extended reals.

  With  x, h (the previous output), s (the previous state) : [8192, 1024],  a gate's weights  W : [2048, 1024]  and
  bias  b : [1024],  the gate's pre-activation at row r and column j is
      gate(W, b)(r, j) = Σ_{k<1024} x(r,k)·W(k,j) + Σ_{k<1024} h(r,k)·W(1024+k,j) + b(j),
  the row of the concatenation [x, h] against column j of W, its sum over the 2048 contraction positions written as
  the sum over the first 1024 plus the sum over the last 1024 (`sum_halves`: a finite sum in a commutative monoid
  splits at any position; nothing here needs the summands finite). Then
      new_state = s · σ(gate_f) + σ(gate_i) · tanh(gate_c),      output = σ(gate_o) · tanh(new_state),
  with σ the logistic function 1 / (1 + e^(−z)) as the extended reals read it.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- A [8192, 1024] array of extended reals: x, the previous output, the previous state, and the two results. -/
abbrev Rows : Type := FVec Ideal ⟨2, ![8192, 1024]⟩ .f32
/-- One gate's [2048, 1024] weight matrix. -/
abbrev Wts : Type := FVec Ideal ⟨2, ![2048, 1024]⟩ .f32
/-- One gate's [1024] bias. -/
abbrev Bias : Type := FVec Ideal ⟨1, ![1024]⟩ .f32

/-- Contraction position k of the first half (the rows of a weight matrix that multiply x). -/
abbrev lo (k : Fin 1024) : Fin 2048 := ⟨k.val, by omega⟩
/-- Contraction position 1024 + k of the second half (the rows that multiply the previous output). -/
abbrev hi (k : Fin 1024) : Fin 2048 := ⟨1024 + k.val, by omega⟩

/-- Column q of gate band g (0 forget, 1 input, 2 candidate, 3 output) among the 4096 fused columns. -/
abbrev band (g : Fin 4) (q : Fin 1024) : Fin 4096 := ⟨g.val * 1024 + q.val, by omega⟩

/-- A gate's pre-activation at row `r`, column `j`. -/
def gate (x h : Rows) (W : Wts) (b : Bias) (r : Fin 8192) (j : Fin 1024) : EReal :=
  ((∑ k : Fin 1024, x (ix2 r k) * W (ix2 (lo k) j)) + ∑ k : Fin 1024, h (ix2 r k) * W (ix2 (hi k) j)) + b (ix1 j)

/-- The new cell state at row `r`, column `j`. -/
def newState (x h s : Rows) (Wf : Wts) (bf : Bias) (Wi : Wts) (bi : Bias) (Wc : Wts) (bc : Bias) (r : Fin 8192) (j : Fin 1024) : EReal :=
  s (ix2 r j) * Ideal.logistic (gate x h Wf bf r j) + Ideal.logistic (gate x h Wi bi r j) * Ideal.tanh (gate x h Wc bc r j)

/-- The cell's output at row `r`, column `j`. -/
def output (x h s : Rows) (Wf : Wts) (bf : Bias) (Wi : Wts) (bi : Bias) (Wc : Wts) (bc : Bias) (Wo : Wts) (bo : Bias)
    (r : Fin 8192) (j : Fin 1024) : EReal :=
  Ideal.logistic (gate x h Wo bo r j) * Ideal.tanh (newState x h s Wf bf Wi bi Wc bc r j)

/-- The new state as an array. -/
def stateArr (x h s : Rows) (Wf : Wts) (bf : Bias) (Wi : Wts) (bi : Bias) (Wc : Wts) (bc : Bias) : Rows :=
  fun i => newState x h s Wf bf Wi bi Wc bc (i 0) (i 1)

/-- The output as an array. -/
def outArr (x h s : Rows) (Wf : Wts) (bf : Bias) (Wi : Wts) (bi : Bias) (Wc : Wts) (bc : Bias) (Wo : Wts) (bo : Bias) : Rows :=
  fun i => output x h s Wf bf Wi bi Wc bc Wo bo (i 0) (i 1)

theorem stateArr_apply (x h s : Rows) (Wf : Wts) (bf : Bias) (Wi : Wts) (bi : Bias) (Wc : Wts) (bc : Bias) (r : Fin 8192) (j : Fin 1024) :
    stateArr x h s Wf bf Wi bi Wc bc (ix2 r j) = newState x h s Wf bf Wi bi Wc bc r j := rfl

theorem outArr_apply (x h s : Rows) (Wf : Wts) (bf : Bias) (Wi : Wts) (bi : Bias) (Wc : Wts) (bc : Bias) (Wo : Wts) (bo : Bias)
    (r : Fin 8192) (j : Fin 1024) :
    outArr x h s Wf bf Wi bi Wc bc Wo bo (ix2 r j) = output x h s Wf bf Wi bi Wc bc Wo bo r j := rfl

/-- A sum over the 2048 contraction positions is the sum over the first 1024 plus the sum over the last 1024. -/
theorem sum_halves (f : Fin 2048 → EReal) : ∑ k : Fin 2048, f k = (∑ k : Fin 1024, f (lo k)) + ∑ k : Fin 1024, f (hi k) :=
  Fin.sum_univ_add (a := 1024) (b := 1024) f

/-- The f32 pattern of 1.0 denotes the real 1. -/
theorem one_f32 : Ideal.ofBits .f32 0x3F800000#32 = 1 := by
  simp [Ideal.ofBits, Ideal.ieee, -EReal.coe_mul]; norm_num

end Cert.Lstm

end
-- ==== Proof.Tile.lean ====
/-
  The kernel body's arithmetic, read at one entry of a tile.

  At row p of a 256-row tile and column `col` of the 4096 fused columns, the gate pre-activations are
      Σ_{k<1024} x(p,k)·W_top(k,col) + Σ_{k<1024} h(p,k)·W_bot(k,col) + bias(0,col):
  each matrix product into a zero accumulator is the plain sum over the contraction index (rounding to bf16 is the
  identity on the extended reals), and the bias row is broadcast down the rows. The four gates are the column bands
  [0,1024), [1024,2048), [2048,3072), [3072,4096) of that [256, 4096] array; at (p, q) the new state is
  s(p,q)·σ(band 0) + σ(band 1)·tanh(band 2) and the output is σ(band 3)·tanh(new state).
-/
import proofs.«122653_j25829933318237_2_alg».proof.Proof.Gen.KernelIdeal.Skeleton
import proofs.«122653_j25829933318237_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Lstm.Tile

open Idealize.ShloMosaic Idealize.ShloMosaic.ValueIdx
open Cert.KernelIdeal Cert.KernelIdeal.Gen Cert.Lstm

/-- The matrix products' dimension record: [256, 1024] × [1024, 4096] → [256, 4096], contracting axis 1 with axis 0. -/
abbrev D : DotDims S256x1024 S1024x4096 S256x4096 := dot_S256x1024_S1024x4096_S256x4096_1_0_0_1_n_n

/-! ## A matrix product into a zero accumulator, at an entry -/

theorem lhs_row (i : S256x4096.Idx) (q : D.contr.Idx) : (D.lhsIdx i q 0).val = (i 0).val := by
  unfold DotDims.lhsIdx
  rw [dif_neg (show ¬(0 : Fin S256x1024.rank) ∈ D.lhsBatch by decide), dif_pos (show (0 : Fin S256x1024.rank) ∈ D.lhsNonContracting by decide)]
  rfl
theorem lhs_contr (i : S256x4096.Idx) (q : D.contr.Idx) : (D.lhsIdx i q 1).val = (q ⟨0, by decide⟩).val :=
  D.lhsIdx_val_of_single rfl i q
theorem rhs_contr (i : S256x4096.Idx) (q : D.contr.Idx) : (D.rhsIdx i q 0).val = (q ⟨0, by decide⟩).val :=
  D.rhsIdx_val_of_single rfl i q
theorem rhs_col (i : S256x4096.Idx) (q : D.contr.Idx) : (D.rhsIdx i q 1).val = (i 1).val := by
  unfold DotDims.rhsIdx
  rw [dif_neg (show ¬(1 : Fin S1024x4096.rank) ∈ D.rhsBatch by decide), dif_pos (show (1 : Fin S1024x4096.rank) ∈ D.rhsNonContracting by decide)]
  rfl

/-- Entry (p, col) of  a · w  (accumulated from zero) is  Σ_k a(p,k)·w(k,col). -/
theorem product_apply (a : FVec Ideal S256x1024 .bf16) (w : FVec Ideal S1024x4096 .bf16) (p : Fin 256) (col : Fin 4096) :
    matmul D none a w (constant (F := Ideal) S256x4096 .f32 0x00000000#32) (ix2 p col)
      = ∑ k : Fin 1024, a (ix2 p k) * w (ix2 k col) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p col) ((contrEquiv1 D 1024 rfl rfl).symm k) = ix2 p k := funext fun a => Fin.ext (by
    match a with
    | ⟨0, _⟩ => exact lhs_row _ _
    | ⟨1, _⟩ => exact (lhs_contr _ _).trans hk)
  have er : D.rhsIdx (ix2 p col) ((contrEquiv1 D 1024 rfl rfl).symm k) = ix2 k col := funext fun a => Fin.ext (by
    match a with
    | ⟨0, _⟩ => exact (rhs_contr _ _).trans hk
    | ⟨1, _⟩ => exact rhs_col _ _)
  rw [el, er]

/-! ## The gate pre-activations -/

/-- The pre-activation at row `p`, fused column `col`, from the tile's loaded values. -/
def pre (x h : FVec Ideal S256x1024 .f32) (wT wB : FVec Ideal S1024x4096 .bf16) (b : FVec Ideal S1x4096 .f32) (p : Fin 256) (col : Fin 4096) : EReal :=
  ((∑ k : Fin 1024, x (ix2 p k) * wT (ix2 k col)) + ∑ k : Fin 1024, h (ix2 p k) * wB (ix2 k col)) + b (ix2 (0 : Fin 1) col)

/-- The body's [256, 4096] pre-activation array at (p, col). -/
theorem pay1_apply (x h : FVec Ideal S256x1024 .f32) (wT wB : FVec Ideal S1024x4096 .bf16) (b : FVec Ideal S1x4096 .f32) (p : Fin 256) (col : Fin 4096) :
    k0_pay1 (F := Ideal) x h wT wB b (ix2 p col) = pre x h wT wB b p col := by
  unfold k0_pay1 pre
  rw [addf_apply, addf_apply, shapeCast_self, shapeCast_self, shapeCast_self, broadcastTo_1b_ab_apply, product_apply, product_apply]
  rfl

/-- The new state at (p, q) of the tile. -/
def stateAt (x h s : FVec Ideal S256x1024 .f32) (wT wB : FVec Ideal S1024x4096 .bf16) (b : FVec Ideal S1x4096 .f32) (p : Fin 256) (q : Fin 1024) : EReal :=
  s (ix2 p q) * Ideal.logistic (pre x h wT wB b p (band 0 q)) + Ideal.logistic (pre x h wT wB b p (band 1 q)) * Ideal.tanh (pre x h wT wB b p (band 2 q))

/-- The stored new-state payload at (p, q). -/
theorem pay2_apply (x h s : FVec Ideal S256x1024 .f32) (wT wB : FVec Ideal S1024x4096 .bf16) (b : FVec Ideal S1x4096 .f32) (p : Fin 256) (q : Fin 1024) :
    k0_pay2 (F := Ideal) x h wT wB b s (ix2 p q) = stateAt x h s wT wB b p q := by
  unfold k0_pay2 stateAt
  rw [addf_apply, mulf_apply, mulf_apply]
  show s (ix2 p q) * Ideal.logistic (extractStridedSlice S256x1024 ![0, 0] (k0_pay1 (F := Ideal) x h wT wB b) _ (ix2 p q))
      + Ideal.logistic (extractStridedSlice S256x1024 ![0, 1024] (k0_pay1 (F := Ideal) x h wT wB b) _ (ix2 p q))
        * Ideal.tanh (extractStridedSlice S256x1024 ![0, 2048] (k0_pay1 (F := Ideal) x h wT wB b) _ (ix2 p q)) = _
  rw [slice2_axis1_apply 0 _ _ p q (band 0 q) (by show 0 * 1024 + q.val = 0 + q.val; omega),
    slice2_axis1_apply 1024 _ _ p q (band 1 q) (by show 1 * 1024 + q.val = 1024 + q.val; omega),
    slice2_axis1_apply 2048 _ _ p q (band 2 q) (by show 2 * 1024 + q.val = 2048 + q.val; omega),
    pay1_apply, pay1_apply, pay1_apply]

/-- The output at (p, q) of the tile. -/
def outAt (x h s : FVec Ideal S256x1024 .f32) (wT wB : FVec Ideal S1024x4096 .bf16) (b : FVec Ideal S1x4096 .f32) (p : Fin 256) (q : Fin 1024) : EReal :=
  Ideal.logistic (pre x h wT wB b p (band 3 q)) * Ideal.tanh (stateAt x h s wT wB b p q)

/-- The stored output payload at (p, q). -/
theorem pay3_apply (x h s : FVec Ideal S256x1024 .f32) (wT wB : FVec Ideal S1024x4096 .bf16) (b : FVec Ideal S1x4096 .f32) (p : Fin 256) (q : Fin 1024) :
    k0_pay3 (F := Ideal) x h wT wB b s (ix2 p q) = outAt x h s wT wB b p q := by
  unfold k0_pay3 outAt
  rw [mulf_apply]
  show Ideal.logistic (extractStridedSlice S256x1024 ![0, 3072] (k0_pay1 (F := Ideal) x h wT wB b) _ (ix2 p q))
      * Ideal.tanh (k0_pay2 (F := Ideal) x h wT wB b s (ix2 p q)) = _
  rw [slice2_axis1_apply 3072 _ _ p q (band 3 q) (by show 3 * 1024 + q.val = 3072 + q.val; omega), pay1_apply, pay2_apply]

end Cert.Lstm.Tile

end
-- ==== Proof.Fused.lean ====
/-
  The fused weight matrix and the fused bias row, read at an entry.

  The four gate weight matrices laid side by side along the columns give a [2048, 4096] matrix whose column
  g·1024 + q is column q of gate g's matrix (g = 0 forget, 1 input, 2 candidate, 3 output); rounding it to bf16 changes
  nothing on the extended reals. The four biases laid end to end give a [4096] vector whose entry g·1024 + q is entry q
  of gate g's bias; viewed as a [1, 4096] row its entry (0, c) is the vector's entry c.
-/
import proofs.«122653_j25829933318237_2_alg».proof.Proof.Gen.KernelIdeal
import proofs.«122653_j25829933318237_2_alg».proof.Proof.Spec
import Idealize.ShloMosaic.Lib.ValueIdx
import Idealize.ShloMosaic.Lib.ValueLayout
import Idealize.ShloMosaic.Lib.Pipeline.Value

noncomputable section

namespace Cert.Lstm.Fused

open Idealize.ShloMosaic Idealize.ShloMosaic.ValueIdx
open Cert.KernelIdeal Cert.KernelIdeal.Gen Cert.Lstm

/-- The four weight matrices side by side, rounded to bf16. -/
def weights (Wf Wi Wc Wo : Wts) : FVec Ideal S2048x4096 .bf16 :=
  truncf .bf16 (concatenate S2048x4096 1 [⟨S2048x1024, Wf⟩, ⟨S2048x1024, Wi⟩, ⟨S2048x1024, Wc⟩, ⟨S2048x1024, Wo⟩]
    concatenates_S2048x1024_S2048x1024_S2048x1024_S2048x1024_S2048x4096_d1) bitsLt_bf16_f32

/-- The four biases end to end, as a row. -/
def biasRow (bf bi bc bo : Bias) : FVec Ideal S1x4096 .f32 :=
  shapeCast S1x4096 (concatenate S4096 0 [⟨S1024, bf⟩, ⟨S1024, bi⟩, ⟨S1024, bc⟩, ⟨S1024, bo⟩]
    concatenates_S1024_S1024_S1024_S1024_S4096_d0) shapeCasts_S4096_S1x4096

/-! Entry (k, g·1024 + q) of the fused matrix is entry (k, q) of gate g's matrix: the pieces before it span g·1024 columns. -/

theorem weights_f (Wf Wi Wc Wo : Wts) (k : Fin 2048) (q : Fin 1024) : weights Wf Wi Wc Wo (ix2 k (band 0 q)) = Wf (ix2 k q) := by
  unfold weights
  rw [truncf_apply]
  exact concatenate_apply_piece (t := S2048x4096) (1 : Fin 2)
    [⟨S2048x1024, Wf⟩, ⟨S2048x1024, Wi⟩, ⟨S2048x1024, Wc⟩, ⟨S2048x1024, Wo⟩] _ (ix2 k (band 0 q))
    0 (by show 0 < 4; omega) S2048x1024 Wf rfl rfl 0 rfl (ix2 k q)
    (fun b hb => by
      match b with
      | ⟨0, _⟩ => rfl
      | ⟨1, _⟩ => exact absurd rfl hb)
    (by show 0 + q.val = 0 * 1024 + q.val; omega)
theorem weights_i (Wf Wi Wc Wo : Wts) (k : Fin 2048) (q : Fin 1024) : weights Wf Wi Wc Wo (ix2 k (band 1 q)) = Wi (ix2 k q) := by
  unfold weights
  rw [truncf_apply]
  exact concatenate_apply_piece (t := S2048x4096) (1 : Fin 2)
    [⟨S2048x1024, Wf⟩, ⟨S2048x1024, Wi⟩, ⟨S2048x1024, Wc⟩, ⟨S2048x1024, Wo⟩] _ (ix2 k (band 1 q))
    1 (by show 1 < 4; omega) S2048x1024 Wi rfl rfl 1024 rfl (ix2 k q)
    (fun b hb => by
      match b with
      | ⟨0, _⟩ => rfl
      | ⟨1, _⟩ => exact absurd rfl hb)
    (by show 1024 + q.val = 1 * 1024 + q.val; omega)
theorem weights_c (Wf Wi Wc Wo : Wts) (k : Fin 2048) (q : Fin 1024) : weights Wf Wi Wc Wo (ix2 k (band 2 q)) = Wc (ix2 k q) := by
  unfold weights
  rw [truncf_apply]
  exact concatenate_apply_piece (t := S2048x4096) (1 : Fin 2)
    [⟨S2048x1024, Wf⟩, ⟨S2048x1024, Wi⟩, ⟨S2048x1024, Wc⟩, ⟨S2048x1024, Wo⟩] _ (ix2 k (band 2 q))
    2 (by show 2 < 4; omega) S2048x1024 Wc rfl rfl 2048 rfl (ix2 k q)
    (fun b hb => by
      match b with
      | ⟨0, _⟩ => rfl
      | ⟨1, _⟩ => exact absurd rfl hb)
    (by show 2048 + q.val = 2 * 1024 + q.val; omega)
theorem weights_o (Wf Wi Wc Wo : Wts) (k : Fin 2048) (q : Fin 1024) : weights Wf Wi Wc Wo (ix2 k (band 3 q)) = Wo (ix2 k q) := by
  unfold weights
  rw [truncf_apply]
  exact concatenate_apply_piece (t := S2048x4096) (1 : Fin 2)
    [⟨S2048x1024, Wf⟩, ⟨S2048x1024, Wi⟩, ⟨S2048x1024, Wc⟩, ⟨S2048x1024, Wo⟩] _ (ix2 k (band 3 q))
    3 (by show 3 < 4; omega) S2048x1024 Wo rfl rfl 3072 rfl (ix2 k q)
    (fun b hb => by
      match b with
      | ⟨0, _⟩ => rfl
      | ⟨1, _⟩ => exact absurd rfl hb)
    (by show 3072 + q.val = 3 * 1024 + q.val; omega)

/-! Entry (0, g·1024 + q) of the fused bias row is entry q of gate g's bias. -/

theorem bias_f (bf bi bc bo : Bias) (q : Fin 1024) : biasRow bf bi bc bo (ix2 (0 : Fin 1) (band 0 q)) = bf (ix1 q) := by
  unfold biasRow
  rw [shapeCast_a_1a_apply]
  exact concatenate_apply_piece (t := S4096) (0 : Fin 1)
    [⟨S1024, bf⟩, ⟨S1024, bi⟩, ⟨S1024, bc⟩, ⟨S1024, bo⟩] _ (ix1 (band 0 q))
    0 (by show 0 < 4; omega) S1024 bf rfl rfl 0 rfl (ix1 q)
    (fun a ha => by
      match a with
      | ⟨0, _⟩ => exact absurd rfl ha)
    (by show 0 + q.val = 0 * 1024 + q.val; omega)
theorem bias_i (bf bi bc bo : Bias) (q : Fin 1024) : biasRow bf bi bc bo (ix2 (0 : Fin 1) (band 1 q)) = bi (ix1 q) := by
  unfold biasRow
  rw [shapeCast_a_1a_apply]
  exact concatenate_apply_piece (t := S4096) (0 : Fin 1)
    [⟨S1024, bf⟩, ⟨S1024, bi⟩, ⟨S1024, bc⟩, ⟨S1024, bo⟩] _ (ix1 (band 1 q))
    1 (by show 1 < 4; omega) S1024 bi rfl rfl 1024 rfl (ix1 q)
    (fun a ha => by
      match a with
      | ⟨0, _⟩ => exact absurd rfl ha)
    (by show 1024 + q.val = 1 * 1024 + q.val; omega)
theorem bias_c (bf bi bc bo : Bias) (q : Fin 1024) : biasRow bf bi bc bo (ix2 (0 : Fin 1) (band 2 q)) = bc (ix1 q) := by
  unfold biasRow
  rw [shapeCast_a_1a_apply]
  exact concatenate_apply_piece (t := S4096) (0 : Fin 1)
    [⟨S1024, bf⟩, ⟨S1024, bi⟩, ⟨S1024, bc⟩, ⟨S1024, bo⟩] _ (ix1 (band 2 q))
    2 (by show 2 < 4; omega) S1024 bc rfl rfl 2048 rfl (ix1 q)
    (fun a ha => by
      match a with
      | ⟨0, _⟩ => exact absurd rfl ha)
    (by show 2048 + q.val = 2 * 1024 + q.val; omega)
theorem bias_o (bf bi bc bo : Bias) (q : Fin 1024) : biasRow bf bi bc bo (ix2 (0 : Fin 1) (band 3 q)) = bo (ix1 q) := by
  unfold biasRow
  rw [shapeCast_a_1a_apply]
  exact concatenate_apply_piece (t := S4096) (0 : Fin 1)
    [⟨S1024, bf⟩, ⟨S1024, bi⟩, ⟨S1024, bc⟩, ⟨S1024, bo⟩] _ (ix1 (band 3 q))
    3 (by show 3 < 4; omega) S1024 bo rfl rfl 3072 rfl (ix1 q)
    (fun a ha => by
      match a with
      | ⟨0, _⟩ => exact absurd rfl ha)
    (by show 3072 + q.val = 3 * 1024 + q.val; omega)

end Cert.Lstm.Fused

end
-- ==== Proof.CellValue.lean ====
/-
  What the idealized kernel's two result arrays hold after the run: the specification's arrays.

  Grid point t works on rows 256·t … 256·t + 255: its row tiles of x, the previous output and the previous state are
  those rows of the argument arrays (which the region finds as launched), its weight and bias buffers hold the whole
  fused matrix and the whole fused bias row, and the two tiles it writes back are those rows of the results. The
  upper half of the fused matrix holds rows 0 … 1023 of every gate's weights and the lower half rows 1024 … 2047, so
  a tile's pre-activation at (p, g·1024 + q) is the specification's gate g at (256·t + p, q); hence what point t
  writes back is block t of the specification's array. The 32 blocks tile the 8192 rows, so each result array ends
  as the specification's array, whole.
-/
import proofs.«122653_j25829933318237_2_alg».proof.Proof.IdealRun
import proofs.«122653_j25829933318237_2_alg».proof.Proof.Tile
import proofs.«122653_j25829933318237_2_alg».proof.Proof.Fused
import proofs.«122653_j25829933318237_2_alg».proof.Proof.Spec
import Idealize.ShloMosaic.Lib.StableHlo.Run

set_option maxRecDepth 16384

noncomputable section

namespace Cert.KernelIdeal.CellValue

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Cell Cert.Lstm

variable (m : (ℓ : Loc nD τ sig) → Buf (Elt Ideal) ℓ) (ρ : Dev nD → PrngReg)

/-! ## The arguments, named -/

abbrev aX (c : Dev nD) : Rows := m ((c : Thread nD τ).loc main_arg0)
abbrev aH (c : Dev nD) : Rows := m ((c : Thread nD τ).loc main_arg1)
abbrev aS (c : Dev nD) : Rows := m ((c : Thread nD τ).loc main_arg2)
abbrev aWf (c : Dev nD) : Wts := m ((c : Thread nD τ).loc main_arg3)
abbrev abf (c : Dev nD) : Bias := m ((c : Thread nD τ).loc main_arg4)
abbrev aWi (c : Dev nD) : Wts := m ((c : Thread nD τ).loc main_arg5)
abbrev abi (c : Dev nD) : Bias := m ((c : Thread nD τ).loc main_arg6)
abbrev aWc (c : Dev nD) : Wts := m ((c : Thread nD τ).loc main_arg7)
abbrev abc (c : Dev nD) : Bias := m ((c : Thread nD τ).loc main_arg8)
abbrev aWo (c : Dev nD) : Wts := m ((c : Thread nD τ).loc main_arg9)
abbrev abo (c : Dev nD) : Bias := m ((c : Thread nD τ).loc main_arg10)

/-! ## The fused buffers as the region finds them -/

/-- The region finds the weight window's array at the fused bf16 matrix of the four launched weight matrices. -/
theorem entry_weights (c : Dev nD) :
    (V m c main_v1 : S2048x4096.Idx → EReal) = Fused.weights (aWf m c) (aWi m c) (aWc m c) (aWo m c) := by
  dsimp only [V, hostOps0]; after_results; rfl

/-- The region finds the bias window's array at the fused row of the four launched biases. -/
theorem entry_bias (c : Dev nD) :
    (V m c main_v3 : S1x4096.Idx → EReal) = Fused.biasRow (abf m c) (abi m c) (abc m c) (abo m c) := by
  dsimp only [V, hostOps0]; after_results; rfl

/-! ## The windows' blocks, read at an entry -/

theorem hz : (![0, 0] : Fin 2 → Nat) = fun _ => 0 := funext fun a => by fin_cases a <;> rfl

/-- The printed index maps over the grid: the five row-tile windows are at block row t, the two whole-array windows at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 32 := by
  have h : t.val < grid0.N := t.isLt
  rw [N_0] at h; exact h

/-- Row p of point t's tile is row 256·t + p of the array. -/
abbrev row (t : Fin cfg0.N) (p : Fin 256) : Fin 8192 := ⟨t.val * 256 + p.val, by have := point_lt t; omega⟩

theorem x_at (c : Dev nD) (t : Fin cfg0.N) (p : Fin 256) (k : Fin 1024) : iblk m c 0 t (ix2 p k) = aX m c (ix2 (row t p) k) := by
  refine Eq.trans ?_ (congrFun (entry_arg0 m c) (ix2 (row t p) k))
  show V m c main_arg0 (((cfg0.win 0).blk t).view.emb (ix2 p k)) = V m c main_arg0 (ix2 (row t p) k)
  refine congrArg _ (funext fun a => Fin.ext ?_)
  obtain ⟨e0, e1, -⟩ := index_facts t
  match a with
  | ⟨0, _⟩ => show win0_0.index t (0 : Fin 2) * 256 + 1 * p.val = t.val * 256 + p.val; omega
  | ⟨1, _⟩ => show win0_0.index t (1 : Fin 2) * 1024 + 1 * k.val = k.val; omega

theorem h_at (c : Dev nD) (t : Fin cfg0.N) (p : Fin 256) (k : Fin 1024) : iblk m c 1 t (ix2 p k) = aH m c (ix2 (row t p) k) := by
  refine Eq.trans ?_ (congrFun (entry_arg1 m c) (ix2 (row t p) k))
  show V m c main_arg1 (((cfg0.win 1).blk t).view.emb (ix2 p k)) = V m c main_arg1 (ix2 (row t p) k)
  refine congrArg _ (funext fun a => Fin.ext ?_)
  obtain ⟨-, -, e0, e1, -⟩ := index_facts t
  match a with
  | ⟨0, _⟩ => show win0_1.index t (0 : Fin 2) * 256 + 1 * p.val = t.val * 256 + p.val; omega
  | ⟨1, _⟩ => show win0_1.index t (1 : Fin 2) * 1024 + 1 * k.val = k.val; omega

theorem s_at (c : Dev nD) (t : Fin cfg0.N) (p : Fin 256) (k : Fin 1024) : iblk m c 2 t (ix2 p k) = aS m c (ix2 (row t p) k) := by
  refine Eq.trans ?_ (congrFun (entry_arg2 m c) (ix2 (row t p) k))
  show V m c main_arg2 (((cfg0.win 2).blk t).view.emb (ix2 p k)) = V m c main_arg2 (ix2 (row t p) k)
  refine congrArg _ (funext fun a => Fin.ext ?_)
  obtain ⟨-, -, -, -, e0, e1, -⟩ := index_facts t
  match a with
  | ⟨0, _⟩ => show win0_2.index t (0 : Fin 2) * 256 + 1 * p.val = t.val * 256 + p.val; omega
  | ⟨1, _⟩ => show win0_2.index t (1 : Fin 2) * 1024 + 1 * k.val = k.val; omega

/-- The upper half of the weight buffer at (k, col) is the fused matrix at (k, col). -/
theorem wtop_at (c : Dev nD) (t : Fin cfg0.N) (k : Fin 1024) (col : Fin 4096) :
    View.ld (iblk m c 3 t) wTop (ix2 k col) = Fused.weights (aWf m c) (aWi m c) (aWc m c) (aWo m c) (ix2 (lo k) col) := by
  rw [← entry_weights m c]
  show V m c main_v1 (((cfg0.win 3).blk t).view.emb (wTop.idx (ix2 k col))) = V m c main_v1 (ix2 (lo k) col)
  refine congrArg _ (funext fun a => Fin.ext ?_)
  obtain ⟨-, -, -, -, -, -, e0, e1, -⟩ := index_facts t
  match a with
  | ⟨0, _⟩ => show win0_3.index t (0 : Fin 2) * 2048 + 1 * (0 + 1 * k.val) = k.val; omega
  | ⟨1, _⟩ => show win0_3.index t (1 : Fin 2) * 4096 + 1 * (0 + 1 * col.val) = col.val; omega

/-- The lower half of the weight buffer at (k, col) is the fused matrix at (1024 + k, col). -/
theorem wbot_at (c : Dev nD) (t : Fin cfg0.N) (k : Fin 1024) (col : Fin 4096) :
    View.ld (iblk m c 3 t) wBot (ix2 k col) = Fused.weights (aWf m c) (aWi m c) (aWc m c) (aWo m c) (ix2 (hi k) col) := by
  rw [← entry_weights m c]
  show V m c main_v1 (((cfg0.win 3).blk t).view.emb (wBot.idx (ix2 k col))) = V m c main_v1 (ix2 (hi k) col)
  refine congrArg _ (funext fun a => Fin.ext ?_)
  obtain ⟨-, -, -, -, -, -, e0, e1, -⟩ := index_facts t
  match a with
  | ⟨0, _⟩ => show win0_3.index t (0 : Fin 2) * 2048 + 1 * (1024 + 1 * k.val) = 1024 + k.val; omega
  | ⟨1, _⟩ => show win0_3.index t (1 : Fin 2) * 4096 + 1 * (0 + 1 * col.val) = col.val; omega

/-- The bias buffer at (0, col) is the fused bias row at (0, col). -/
theorem b_at (c : Dev nD) (t : Fin cfg0.N) (col : Fin 4096) :
    iblk m c 4 t (ix2 (0 : Fin 1) col) = Fused.biasRow (abf m c) (abi m c) (abc m c) (abo m c) (ix2 (0 : Fin 1) col) := by
  rw [← entry_bias m c]
  show V m c main_v3 (((cfg0.win 4).blk t).view.emb (ix2 (0 : Fin 1) col)) = V m c main_v3 (ix2 (0 : Fin 1) col)
  refine congrArg _ (funext fun a => Fin.ext ?_)
  obtain ⟨-, -, -, -, -, -, -, -, e0, e1, -⟩ := index_facts t
  match a with
  | ⟨0, _⟩ => show win0_4.index t (0 : Fin 2) * 1 + 1 * 0 = 0; omega
  | ⟨1, _⟩ => show win0_4.index t (1 : Fin 2) * 4096 + 1 * col.val = col.val; omega

/-! ## A tile's pre-activations are the specification's gates -/

theorem pre_f (c : Dev nD) (t : Fin cfg0.N) (p : Fin 256) (q : Fin 1024) :
    Tile.pre (iblk m c 0 t) (iblk m c 1 t) (View.ld (iblk m c 3 t) wTop) (View.ld (iblk m c 3 t) wBot) (iblk m c 4 t) p (band 0 q)
      = gate (aX m c) (aH m c) (aWf m c) (abf m c) (row t p) q := by
  unfold Tile.pre gate
  refine congrArg₂ (· + ·) (congrArg₂ (· + ·) (Finset.sum_congr rfl fun k _ => ?_) (Finset.sum_congr rfl fun k _ => ?_)) ?_
  · rw [x_at, wtop_at, Fused.weights_f]
  · rw [h_at, wbot_at, Fused.weights_f]
  · rw [b_at, Fused.bias_f]

theorem pre_i (c : Dev nD) (t : Fin cfg0.N) (p : Fin 256) (q : Fin 1024) :
    Tile.pre (iblk m c 0 t) (iblk m c 1 t) (View.ld (iblk m c 3 t) wTop) (View.ld (iblk m c 3 t) wBot) (iblk m c 4 t) p (band 1 q)
      = gate (aX m c) (aH m c) (aWi m c) (abi m c) (row t p) q := by
  unfold Tile.pre gate
  refine congrArg₂ (· + ·) (congrArg₂ (· + ·) (Finset.sum_congr rfl fun k _ => ?_) (Finset.sum_congr rfl fun k _ => ?_)) ?_
  · rw [x_at, wtop_at, Fused.weights_i]
  · rw [h_at, wbot_at, Fused.weights_i]
  · rw [b_at, Fused.bias_i]

theorem pre_c (c : Dev nD) (t : Fin cfg0.N) (p : Fin 256) (q : Fin 1024) :
    Tile.pre (iblk m c 0 t) (iblk m c 1 t) (View.ld (iblk m c 3 t) wTop) (View.ld (iblk m c 3 t) wBot) (iblk m c 4 t) p (band 2 q)
      = gate (aX m c) (aH m c) (aWc m c) (abc m c) (row t p) q := by
  unfold Tile.pre gate
  refine congrArg₂ (· + ·) (congrArg₂ (· + ·) (Finset.sum_congr rfl fun k _ => ?_) (Finset.sum_congr rfl fun k _ => ?_)) ?_
  · rw [x_at, wtop_at, Fused.weights_c]
  · rw [h_at, wbot_at, Fused.weights_c]
  · rw [b_at, Fused.bias_c]

theorem pre_o (c : Dev nD) (t : Fin cfg0.N) (p : Fin 256) (q : Fin 1024) :
    Tile.pre (iblk m c 0 t) (iblk m c 1 t) (View.ld (iblk m c 3 t) wTop) (View.ld (iblk m c 3 t) wBot) (iblk m c 4 t) p (band 3 q)
      = gate (aX m c) (aH m c) (aWo m c) (abo m c) (row t p) q := by
  unfold Tile.pre gate
  refine congrArg₂ (· + ·) (congrArg₂ (· + ·) (Finset.sum_congr rfl fun k _ => ?_) (Finset.sum_congr rfl fun k _ => ?_)) ?_
  · rw [x_at, wtop_at, Fused.weights_o]
  · rw [h_at, wbot_at, Fused.weights_o]
  · rw [b_at, Fused.bias_o]

/-- The tile's new state at (p, q) is the specification's at (256·t + p, q). -/
theorem state_at (c : Dev nD) (t : Fin cfg0.N) (p : Fin 256) (q : Fin 1024) :
    Tile.stateAt (iblk m c 0 t) (iblk m c 1 t) (iblk m c 2 t) (View.ld (iblk m c 3 t) wTop) (View.ld (iblk m c 3 t) wBot) (iblk m c 4 t) p q
      = newState (aX m c) (aH m c) (aS m c) (aWf m c) (abf m c) (aWi m c) (abi m c) (aWc m c) (abc m c) (row t p) q := by
  unfold Tile.stateAt newState
  rw [pre_f, pre_i, pre_c, s_at]

/-- The tile's output at (p, q) is the specification's at (256·t + p, q). -/
theorem out_at (c : Dev nD) (t : Fin cfg0.N) (p : Fin 256) (q : Fin 1024) :
    Tile.outAt (iblk m c 0 t) (iblk m c 1 t) (iblk m c 2 t) (View.ld (iblk m c 3 t) wTop) (View.ld (iblk m c 3 t) wBot) (iblk m c 4 t) p q
      = output (aX m c) (aH m c) (aS m c) (aWf m c) (abf m c) (aWi m c) (abi m c) (aWc m c) (abc m c) (aWo m c) (abo m c) (row t p) q := by
  unfold Tile.outAt output
  rw [pre_o, state_at]

/-! ## What a grid point writes back -/

/-- Entry (p, q) of point t's block of a result array is the array's entry (256·t + p, q). -/
theorem out_row (t : Fin cfg0.N) (p : Fin 256) (q : Fin 1024) : ((cfg0.win 5).blk t).view.emb (ix2 p q) = ix2 (row t p) q := by
  refine funext fun a => Fin.ext ?_
  obtain ⟨-, -, -, -, -, -, -, -, -, -, e0, e1, -⟩ := index_facts t
  match a with
  | ⟨0, _⟩ => show win0_5.index t (0 : Fin 2) * 256 + 1 * p.val = t.val * 256 + p.val; omega
  | ⟨1, _⟩ => show win0_5.index t (1 : Fin 2) * 1024 + 1 * q.val = q.val; omega

theorem state_row (t : Fin cfg0.N) (p : Fin 256) (q : Fin 1024) : ((cfg0.win 6).blk t).view.emb (ix2 p q) = ix2 (row t p) q := by
  refine funext fun a => Fin.ext ?_
  obtain ⟨-, -, -, -, -, -, -, -, -, -, -, -, e0, e1⟩ := index_facts t
  match a with
  | ⟨0, _⟩ => show win0_6.index t (0 : Fin 2) * 256 + 1 * p.val = t.val * 256 + p.val; omega
  | ⟨1, _⟩ => show win0_6.index t (1 : Fin 2) * 1024 + 1 * q.val = q.val; omega

/-- The specification's new-state array of the launched arguments. -/
abbrev specState (c : Dev nD) : Rows := stateArr (aX m c) (aH m c) (aS m c) (aWf m c) (abf m c) (aWi m c) (abi m c) (aWc m c) (abc m c)
/-- The specification's output array of the launched arguments. -/
abbrev specOut (c : Dev nD) : Rows := outArr (aX m c) (aH m c) (aS m c) (aWf m c) (abf m c) (aWi m c) (abi m c) (aWc m c) (abc m c) (aWo m c) (abo m c)

/-- What point t writes back of the new state is block t of the specification's array. -/
theorem flushed_state (c : Dev nD) (t : Fin cfg0.N) :
    (dats m 0 c).flushed 6 t = ((cfg0.win 6).blk t).view.read (Elt Ideal) (specState m c) := by
  show (cfg0.win 6).cut (grid0.coords t) ((dats m 0 c).after 6 t) = _
  rw [after_6]
  unfold stateTile
  rw [View.canon_unit_zero hz]
  simp only [View.ld_unit_zero (S := S256x1024) hz, View.ld_unit_zero (S := S1x4096) hz]
  funext y
  obtain ⟨p, q, rfl⟩ : ∃ (p : Fin 256) (q : Fin 1024), y = ix2 p q := ⟨y 0, y 1, eq_ix2 y⟩
  show k0_pay2 (F := Ideal) (iblk m c 0 t) (iblk m c 1 t) (View.ld (iblk m c 3 t) wTop) (View.ld (iblk m c 3 t) wBot) (iblk m c 4 t) (iblk m c 2 t) (ix2 p q)
    = specState m c (((cfg0.win 6).blk t).view.emb (ix2 p q))
  rw [state_row]
  exact (Tile.pay2_apply _ _ _ _ _ _ p q).trans (state_at m c t p q)

/-- What point t writes back of the output is block t of the specification's array. -/
theorem flushed_out (c : Dev nD) (t : Fin cfg0.N) :
    (dats m 0 c).flushed 5 t = ((cfg0.win 5).blk t).view.read (Elt Ideal) (specOut m c) := by
  show (cfg0.win 5).cut (grid0.coords t) ((dats m 0 c).after 5 t) = _
  rw [after_5]
  unfold outTile
  rw [View.canon_unit_zero hz]
  simp only [View.ld_unit_zero (S := S256x1024) hz, View.ld_unit_zero (S := S1x4096) hz]
  funext y
  obtain ⟨p, q, rfl⟩ : ∃ (p : Fin 256) (q : Fin 1024), y = ix2 p q := ⟨y 0, y 1, eq_ix2 y⟩
  show k0_pay3 (F := Ideal) (iblk m c 0 t) (iblk m c 1 t) (View.ld (iblk m c 3 t) wTop) (View.ld (iblk m c 3 t) wBot) (iblk m c 4 t) (iblk m c 2 t) (ix2 p q)
    = specOut m c (((cfg0.win 5).blk t).view.emb (ix2 p q))
  rw [out_row]
  exact (Tile.pay3_apply _ _ _ _ _ _ p q).trans (out_at m c t p q)

/-! ## The blocks tile the rows -/

theorem mem_out_blk (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v4_0).slice (win0_5.rect t)).set ↔ _
  rw [View.set_slice_whole, Rect.mem_set_unit]
  exact Iff.rfl

theorem mem_state_blk (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v4_1).slice (win0_6.rect t)).set ↔ _
  rw [View.set_slice_whole, Rect.mem_set_unit]
  exact Iff.rfl

/-- The point that covers row r is r / 256. -/
abbrev pointOf (i : S8192x1024.Idx) : Fin cfg0.N := ⟨(i 0).val / 256, by
  have h : (i 0).val < 8192 := (i 0).isLt
  rw [show cfg0.N = 32 from N_0]; omega⟩

theorem out_cover (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  refine ⟨pointOf i, flush0_5 _, ?_⟩
  rw [mem_out_blk]
  obtain ⟨-, -, -, -, -, -, -, -, -, -, e0, e1, -⟩ := index_facts (pointOf i)
  have ht : (pointOf i).val = (i 0).val / 256 := rfl
  intro a
  match a with
  | ⟨0, _⟩ =>
    show win0_5.index (pointOf i) (0 : Fin 2) * 256 ≤ (i 0).val ∧ (i 0).val < win0_5.index (pointOf i) (0 : Fin 2) * 256 + 256
    omega
  | ⟨1, _⟩ =>
    show win0_5.index (pointOf i) (1 : Fin 2) * 1024 ≤ (i 1).val ∧ (i 1).val < win0_5.index (pointOf i) (1 : Fin 2) * 1024 + 1024
    omega

theorem state_cover (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  refine ⟨pointOf i, flush0_6 _, ?_⟩
  rw [mem_state_blk]
  obtain ⟨-, -, -, -, -, -, -, -, -, -, -, -, e0, e1⟩ := index_facts (pointOf i)
  have ht : (pointOf i).val = (i 0).val / 256 := rfl
  intro a
  match a with
  | ⟨0, _⟩ =>
    show win0_6.index (pointOf i) (0 : Fin 2) * 256 ≤ (i 0).val ∧ (i 0).val < win0_6.index (pointOf i) (0 : Fin 2) * 256 + 256
    omega
  | ⟨1, _⟩ =>
    show win0_6.index (pointOf i) (1 : Fin 2) * 1024 ≤ (i 1).val ∧ (i 1).val < win0_6.index (pointOf i) (1 : Fin 2) * 1024 + 1024
    omega

/-! ## The result arrays after the run -/

theorem final_out (c : Dev nD) : (dats m 0 c).arrAt 5 cfg0.N = specOut m c :=
  (dats m 0 c).arrAt_eq_of_cover 5 (specOut m c) (fun t _ => flushed_out m c t) out_cover

theorem final_state (c : Dev nD) : (dats m 0 c).arrAt 6 cfg0.N = specState m c :=
  (dats m 0 c).arrAt_eq_of_cover 6 (specState m c) (fun t _ => flushed_state m c t) state_cover

/-- The idealized kernel's run: every weakly fair execution terminates without fault, the two result arrays end as the
    specification's output and new state of the launched arguments, and the arguments end unchanged. -/
theorem run : θ_run defs (onTc (τ := τ) (main (F := Ideal))) ⟨m, fun _ => 0, ρ⟩ fun r => ∀ c : Dev nD,
      r.2.mem ((c.tc : Thread nD τ).loc main_v4_0) = specOut m c
      ∧ r.2.mem ((c.tc : Thread nD τ).loc main_v4_1) = specState m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans (final_out m c), ((h c).1 6).trans (final_state m c),
    args_kept m (dats m) (A_eq m) r h c⟩) (run_main m ρ)

end Cert.KernelIdeal.CellValue

end
-- ==== Proof.RefCell.lean ====
/-
  The reference computes the specification.

  The reference lays x and the previous output side by side into one [8192, 2048] array and multiplies it by each
  gate's [2048, 1024] weight matrix. Read at row r and column j that product is a sum over the 2048 contraction
  positions; position k of the first half reads x(r, k) and position 1024 + k of the second half reads the previous
  output at (r, k), so the sum is the specification's two half-sums. The bias, broadcast down the rows, contributes
  b(j). The reference's sigmoid is spelt  1 / (1 + exp(−z)),  which is the logistic function by definition, the
  constant's pattern denoting the real 1.
-/
import proofs.«122653_j25829933318237_2_alg».proof.Proof.Gen.ReferenceIdeal.Read
import proofs.«122653_j25829933318237_2_alg».proof.Proof.Spec

noncomputable section

namespace Cert.Lstm.Ref

open Idealize.ShloMosaic Idealize.ShloMosaic.ValueIdx
open Cert.ReferenceIdeal Cert.ReferenceIdeal.Gen Cert.ReferenceIdeal.Read Cert.Lstm

/-! ## The side-by-side array at a contraction position -/

/-- A position of the first half reads x. -/
theorem joined_lo (x h : Rows) (r : Fin 8192) (j : Fin 1024) (k : Fin 1024) :
    val_main_v0 (F := Ideal) x h (lidx_main_v1 (ix2 r j) (lo k)) = x (ix2 r k) := by
  unfold val_main_v0
  exact concatenate_pair_apply_left (t := S8192x2048) (1 : Fin 2) x h _ (lidx_main_v1 (ix2 r j) (lo k)) rfl (ix2 r k) (fun b => by
    match b with
    | ⟨0, _⟩ => rfl
    | ⟨1, _⟩ => rfl)

/-- A position of the second half reads the previous output. -/
theorem joined_hi (x h : Rows) (r : Fin 8192) (j : Fin 1024) (k : Fin 1024) :
    val_main_v0 (F := Ideal) x h (lidx_main_v1 (ix2 r j) (hi k)) = h (ix2 r k) := by
  unfold val_main_v0
  exact concatenate_pair_apply_right (t := S8192x2048) (1 : Fin 2) x h _ (lidx_main_v1 (ix2 r j) (hi k)) rfl rfl (ix2 r k) (fun b hb => by
    match b with
    | ⟨0, _⟩ => rfl
    | ⟨1, _⟩ => exact absurd rfl hb) (by show k.val + 1024 = 1024 + k.val; omega)

/-- The weight matrix is read at (k, j). -/
theorem wts_at (r : Fin 8192) (j : Fin 1024) (k : Fin 2048) : ridx_main_v1 (ix2 r j) k = ix2 k j :=
  funext fun a => Fin.ext (by
    match a with
    | ⟨0, _⟩ => rfl
    | ⟨1, _⟩ => rfl)

/-- The bias, made a row and broadcast down the rows, is read at j. -/
theorem bias_at (r : Fin 8192) (j : Fin 1024) : idx_main_v2 (idx_main_v3 (ix2 r j)) = ix1 j :=
  funext fun a => Fin.ext (by
    match a with
    | ⟨0, _⟩ => rfl)

/-! ## A gate's pre-activation -/

/-- The reference's pre-activation  [x, h] · W + b  at (r, j) is the specification's. -/
theorem gate_eq (x h : Rows) (W : Wts) (b : Bias) (r : Fin 8192) (j : Fin 1024) :
    val_main_v4 (F := Ideal) x h W b (ix2 r j) = gate x h W b r j := by
  rw [val_main_v4_apply, val_main_v1_apply, val_main_v3_apply, val_main_v2_apply, sum_halves]
  simp only [joined_lo, joined_hi, wts_at, bias_at]
  rfl

/-- The reference's sigmoid of a pre-activation is the logistic function of it. -/
theorem sigmoid_eq (x h : Rows) (W : Wts) (b : Bias) (r : Fin 8192) (j : Fin 1024) :
    val_main_v10 (F := Ideal) x h W b (ix2 r j) = Ideal.logistic (gate x h W b r j) := by
  rw [val_main_v10_apply, val_main_v9_apply, val_main_cst_0_apply, val_main_v8_apply, val_main_v7_apply, val_main_cst_apply,
    val_main_v6_apply, val_main_v5_apply, gate_eq]
  simp only [Ideal.ofBits_def, one_f32]
  rfl

/-! ## The two results -/

/-- The reference's new state is the specification's. -/
theorem state_eq (x h s : Rows) (Wf : Wts) (bf : Bias) (Wi : Wts) (bi : Bias) (Wc : Wts) (bc : Bias) :
    val_main_v38 (F := Ideal) x h s Wf bf Wi bi Wc bc = stateArr x h s Wf bf Wi bi Wc bc := by
  funext i
  obtain ⟨r, j, rfl⟩ : ∃ (r : Fin 8192) (j : Fin 1024), i = ix2 r j := ⟨i 0, i 1, eq_ix2 i⟩
  rw [stateArr_apply, val_main_v38_apply, val_main_v36_apply, val_main_v37_apply, val_main_v25_apply]
  rw [show val_main_v20 (F := Ideal) x h Wi bi = val_main_v10 (F := Ideal) x h Wi bi from rfl,
    show val_main_v24 (F := Ideal) x h Wc bc = val_main_v4 (F := Ideal) x h Wc bc from rfl,
    sigmoid_eq, sigmoid_eq, gate_eq]
  rfl

/-- The reference's output is the specification's. -/
theorem out_eq (x h s : Rows) (Wf : Wts) (bf : Bias) (Wi : Wts) (bi : Bias) (Wc : Wts) (bc : Bias) (Wo : Wts) (bo : Bias) :
    val_main_v40 (F := Ideal) x h s Wf bf Wi bi Wc bc Wo bo = outArr x h s Wf bf Wi bi Wc bc Wo bo := by
  funext i
  obtain ⟨r, j, rfl⟩ : ∃ (r : Fin 8192) (j : Fin 1024), i = ix2 r j := ⟨i 0, i 1, eq_ix2 i⟩
  rw [outArr_apply, val_main_v40_apply, val_main_v39_apply, state_eq, stateArr_apply]
  rw [show val_main_v35 (F := Ideal) x h Wo bo = val_main_v10 (F := Ideal) x h Wo bo from rfl, sigmoid_eq]
  rfl

end Cert.Lstm.Ref

end
-- ==== Proof.lean ====
/-
  The LSTM cell kernel against its jnp reference.

  The kernel fuses the four gates' weight matrices into one [2048, 4096] bf16 matrix and the four biases into one
  [1, 4096] row, and for each tile of 256 rows computes the gate pre-activations as  x · W_top + out_tm1 · W_bot + bias,
  then  new_state = state_tm1 · σ(f) + σ(i) · tanh(c)  and  output = σ(o) · tanh(new_state).  The reference multiplies the
  side-by-side array [x, out_tm1] by each gate's own [2048, 1024] matrix. On the extended reals the two agree entry by
  entry: rounding to bf16 is the identity, a product accumulated from zero is the plain sum over the contraction
  index, a sum over 2048 positions is the sum over the first 1024 plus the sum over the last 1024, column g·1024 + q
  of the fused matrix is column q of gate g's matrix, and the reference's  1 / (1 + exp(−z))  is the logistic function.
  No step needs an entry to be finite, so the precondition is never opened.

  The three frames: each kernel program (as printed, and idealized) runs its four host operations and then its one
  pipelined region to the end without fault, leaving the eleven argument arrays as launched; the reference's frame is
  its run with the results dropped. The idealization rewrote nothing, so there is nothing to preserve.
-/
import proofs.«122653_j25829933318237_2_alg».proof.Defs
import proofs.«122653_j25829933318237_2_alg».proof.Proof.Gen.Kernel
import proofs.«122653_j25829933318237_2_alg».proof.Proof.Gen.KernelIdeal
import proofs.«122653_j25829933318237_2_alg».proof.Proof.Gen.ReferenceIdeal
import proofs.«122653_j25829933318237_2_alg».proof.Proof.Gen.Pre_finite_inputs
import proofs.«122653_j25829933318237_2_alg».proof.Proof.Gen.ReferenceIdeal.Run
import proofs.«122653_j25829933318237_2_alg».proof.Proof.Gen.ReferenceIdeal.Read
import proofs.«122653_j25829933318237_2_alg».proof.Proof.BitsRun
import proofs.«122653_j25829933318237_2_alg».proof.Proof.IdealRun
import proofs.«122653_j25829933318237_2_alg».proof.Proof.CellValue
import proofs.«122653_j25829933318237_2_alg».proof.Proof.RefCell
import Idealize.ShloMosaic.Adequacy
import Idealize.ShloMosaic.Init

noncomputable section

namespace Cert.Proof

open Idealize.ShloMosaic Idealize.SL.Sem

/-- The printed kernel program runs to the end and leaves its arguments as launched. -/
theorem frame_kernel : Cert.frame_Kernel := fun m ρ _ => Cert.Kernel.Cell.frame m ρ

/-- So does the idealized kernel program. -/
theorem frame_kernel_ideal : Cert.frame_KernelIdeal := fun m ρ _ => Cert.KernelIdeal.Cell.frame m ρ

/-- The reference's frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both idealized programs end with the specification's output and new state
    of those arguments: the kernel by its blocks tiling the rows, the reference by reading its operations at an entry. -/
theorem algebraic : Cert.algebraic_KernelIdeal_ReferenceIdeal := by
  intro m ρ m' ρ' _ hagree
  refine ⟨fun c => Cert.KernelIdeal.CellValue.specOut m c, fun c => Cert.KernelIdeal.CellValue.specState m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10⟩ := hagree c
    rw [Cert.ReferenceIdeal.Read.val_main_v40_eq, Cert.Lstm.Ref.out_eq, e0, e1, e2, e3, e4, e5, e6, e7, e8, e9, e10]
  · obtain ⟨e0, e1, e2, e3, e4, e5, e6, e7, e8, -, -⟩ := hagree c
    rw [Cert.ReferenceIdeal.Read.val_main_v38_eq, Cert.Lstm.Ref.state_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
